-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x4 : Shape := ⟨3, ![8, 128, 4]⟩
abbrev S8x256x256x2 : Shape := ⟨4, ![8, 256, 256, 2]⟩
abbrev S_ : Shape := ⟨0, ![]⟩
abbrev S8x128x1 : Shape := ⟨3, ![8, 128, 1]⟩
abbrev S8x128 : Shape := ⟨2, ![8, 128]⟩

class Facts : Prop where
  bcast_S_S8x128x4 : S_.BroadcastsInDim S8x128x4 (![] : Fin 0 → Fin S8x128x4.rank)
  reducesTo_S8x128x4_S_d0_1_2 : S8x128x4.ReducesTo [0, 1, 2] S_
  h_S_ : 0 < S_.numel
  bcast_S_S8x256x256x2 : S_.BroadcastsInDim S8x256x256x2 (![] : Fin 0 → Fin S8x256x256x2.rank)
  reducesTo_S8x256x256x2_S_d0_1_2_3 : S8x256x256x2.ReducesTo [0, 1, 2, 3] S_
  slices_S8x128x4_S8x128x1_0_0_3 : S8x128x4.Slices ![0, 0, 3] S8x128x1
  shapeCasts_S8x128x1_S8x128 : S8x128x1.ShapeCasts S8x128
  bcast_S_S8x128 : S_.BroadcastsInDim S8x128 (![] : Fin 0 → Fin S8x128.rank)
  reducesTo_S8x128_S_d0_1 : S8x128.ReducesTo [0, 1] S_

variable [Facts]

def fn {F : FTy → Type} [FloatOps F] (main_arg0 : FVec F S8x128x4 .f32) (main_arg1 : FVec F S8x256x256x2 .f32) : IVec S_ 1 :=
  let main_v0 : FVec F S8x128x4 .f32 := Host.absf main_arg0
  let main_cst : FVec F S_ .f32 := constant S_ .f32 0x7F800000#32
  let main_v1 : FVec F S8x128x4 .f32 := broadcastInDim S8x128x4 ![] bcast_S_S8x128x4 main_cst
  let main_v2 : IVec S8x128x4 1 := cmpf .olt main_v0 main_v1
  let main_c : IVec S_ 1 := constantI S_ 1 1#1
  let main_v3 : IVec S_ 1 := (fun x v => Host.reduce IntOp.andi x v reducesTo_S8x128x4_S_d0_1_2 h_S_) main_v2 main_c
  let main_v4 : FVec F S8x256x256x2 .f32 := Host.absf main_arg1
  let main_cst_0 : FVec F S_ .f32 := constant S_ .f32 0x7F800000#32
  let main_v5 : FVec F S8x256x256x2 .f32 := broadcastInDim S8x256x256x2 ![] bcast_S_S8x256x256x2 main_cst_0
  let main_v6 : IVec S8x256x256x2 1 := cmpf .olt main_v4 main_v5
  let main_c_1 : IVec S_ 1 := constantI S_ 1 1#1
  let main_v7 : IVec S_ 1 := (fun x v => Host.reduce IntOp.andi x v reducesTo_S8x256x256x2_S_d0_1_2_3 h_S_) main_v6 main_c_1
  let main_v8 : IVec S_ 1 := andi main_v3 main_v7
  let main_v9 : FVec F S8x128x1 .f32 := (extractStridedSlice S8x128x1 ![0, 0, 3] · slices_S8x128x4_S8x128x1_0_0_3) main_arg0
  let main_v10 : FVec F S8x128 .f32 := shapeCast S8x128 main_v9 shapeCasts_S8x128x1_S8x128
  let main_cst_2 : FVec F S_ .f32 := constant S_ .f32 0x00000000#32
  let main_v11 : FVec F S8x128 .f32 := broadcastInDim S8x128 ![] bcast_S_S8x128 main_cst_2
  let main_v12 : IVec S8x128 1 := cmpf .une main_v10 main_v11
  let main_c_3 : IVec S_ 1 := constantI S_ 1 1#1
  let main_v13 : IVec S_ 1 := (fun x v => Host.reduce IntOp.andi x v reducesTo_S8x128_S_d0_1 h_S_) main_v12 main_c_3
  let main_v14 : IVec S_ 1 := andi main_v8 main_v13
  main_v14
-- ==== Kernel.lean ====
abbrev S8x128x4 : Shape := ⟨3, ![8, 128, 4]⟩
abbrev S8x256x256x2 : Shape := ⟨4, ![8, 256, 256, 2]⟩
abbrev S8x128x1 : Shape := ⟨3, ![8, 128, 1]⟩
abbrev S8x128 : Shape := ⟨2, ![8, 128]⟩
abbrev S8x1x128 : Shape := ⟨3, ![8, 1, 128]⟩
abbrev S_ : Shape := ⟨0, ![]⟩
abbrev S8x256x256x1 : Shape := ⟨4, ![8, 256, 256, 1]⟩
abbrev S8x256x256 : Shape := ⟨3, ![8, 256, 256]⟩
abbrev S1x16x256 : Shape := ⟨3, ![1, 16, 256]⟩
abbrev S1x1x128 : Shape := ⟨3, ![1, 1, 128]⟩
abbrev S16x256 : Shape := ⟨2, ![16, 256]⟩
abbrev S128 : Shape := ⟨1, ![128]⟩
abbrev S16x256x1 : Shape := ⟨3, ![16, 256, 1]⟩
abbrev S16x256x128 : Shape := ⟨3, ![16, 256, 128]⟩

abbrev nBuf : Space → Nat
  | .hbm => 31
  | .vmem => 16
  | .smem => 0
  | _ => 0

abbrev bufTy : (tb : Table) → Fin (tcTables nBuf tb) → BufTy
  | .hbm, ⟨0, _⟩ => ⟨S8x128x4, .f32⟩
  | .hbm, ⟨1, _⟩ => ⟨S8x256x256x2, .f32⟩
  | .hbm, ⟨2, _⟩ => ⟨S8x128x1, .f32⟩
  | .hbm, ⟨3, _⟩ => ⟨S8x128, .f32⟩
  | .hbm, ⟨4, _⟩ => ⟨S8x1x128, .f32⟩
  | .hbm, ⟨5, _⟩ => ⟨S8x128x1, .f32⟩
  | .hbm, ⟨6, _⟩ => ⟨S8x128, .f32⟩
  | .hbm, ⟨7, _⟩ => ⟨S8x1x128, .f32⟩
  | .hbm, ⟨8, _⟩ => ⟨S8x128x1, .f32⟩
  | .hbm, ⟨9, _⟩ => ⟨S8x128, .f32⟩
  | .hbm, ⟨10, _⟩ => ⟨S8x1x128, .f32⟩
  | .hbm, ⟨11, _⟩ => ⟨S8x128x1, .f32⟩
  | .hbm, ⟨12, _⟩ => ⟨S8x128, .f32⟩
  | .hbm, ⟨13, _⟩ => ⟨S8x128, .f32⟩
  | .hbm, ⟨14, _⟩ => ⟨S_, .f32⟩
  | .hbm, ⟨15, _⟩ => ⟨S8x128, .f32⟩
  | .hbm, ⟨16, _⟩ => ⟨S8x128, .f32⟩
  | .hbm, ⟨17, _⟩ => ⟨S8x1x128, .f32⟩
  | .hbm, ⟨18, _⟩ => ⟨S_, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S8x1x128, .f32⟩
  | .hbm, ⟨25, _⟩ => ⟨S8x256x256x1, .f32⟩
  | .hbm, ⟨26, _⟩ => ⟨S8x256x256, .f32⟩
  | .hbm, ⟨27, _⟩ => ⟨S8x256x256x1, .f32⟩
  | .hbm, ⟨28, _⟩ => ⟨S8x256x256, .f32⟩
  | .hbm, ⟨29, _⟩ => ⟨S8x256x256, .f32⟩
  | .hbm, ⟨30, _⟩ => ⟨S8x256x256x1, .f32⟩
  | .local _ .vmem, ⟨0, _⟩ => ⟨S1x16x256, .f32⟩
  | .local _ .vmem, ⟨1, _⟩ => ⟨S1x16x256, .f32⟩
  | .local _ .vmem, ⟨2, _⟩ => ⟨S1x16x256, .f32⟩
  | .local _ .vmem, ⟨3, _⟩ => ⟨S1x16x256, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x16x256, .f32⟩
  | .local _ .vmem, ⟨15, _⟩ => ⟨S1x16x256, .f32⟩
  | _, _ => ⟨S8x128x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S8x128x4_S8x128x1_0_0_0 : S8x128x4.Slices ![0, 0, 0] S8x128x1
  shapeCasts_S8x128x1_S8x128 : S8x128x1.ShapeCasts S8x128
  bcast_S8x128_S8x1x128_0_2 : S8x128.BroadcastsInDim S8x1x128 (![0, 2] : Fin 2 → Fin S8x1x128.rank)
  slices_S8x128x4_S8x128x1_0_0_1 : S8x128x4.Slices ![0, 0, 1] S8x128x1
  slices_S8x128x4_S8x128x1_0_0_2 : S8x128x4.Slices ![0, 0, 2] S8x128x1
  slices_S8x128x4_S8x128x1_0_0_3 : S8x128x4.Slices ![0, 0, 3] S8x128x1
  bcast_S_S8x128 : S_.BroadcastsInDim S8x128 (![] : Fin 0 → Fin S8x128.rank)
  slices_S8x256x256x2_S8x256x256x1_0_0_0_0 : S8x256x256x2.Slices ![0, 0, 0, 0] S8x256x256x1
  shapeCasts_S8x256x256x1_S8x256x256 : S8x256x256x1.ShapeCasts S8x256x256
  slices_S8x256x256x2_S8x256x256x1_0_0_0_1 : S8x256x256x2.Slices ![0, 0, 0, 1] S8x256x256x1
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S16x256_S16x256x1 : S16x256.ShapeCasts S16x256x1
  shapeCasts_S128_S1x1x128 : S128.ShapeCasts S1x1x128
  broadcasts_S16x256x1_S16x256x128 : S16x256x1.Broadcasts S16x256x128
  broadcasts_S1x1x128_S16x256x128 : S1x1x128.Broadcasts S16x256x128
  reduces_S16x256x128_S16x256 : S16x256x128.Reduces [2] S16x256
  shapeCasts_S16x256_S1x16x256 : S16x256.ShapeCasts S1x16x256
  bcast_S8x256x256_S8x256x256x1_0_1_2 : S8x256x256.BroadcastsInDim S8x256x256x1 (![0, 1, 2] : Fin 3 → Fin S8x256x256x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256.size a ≤ S8x256x256.size a
  hwx0_0 : ∀ i : grid0.Coords, EltTy.bits .f32 = 32 ∨ (Rect.block (s := S8x256x256) S1x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256.size a ≤ S8x256x256.size a
  hwx0_1 : ∀ i : grid0.Coords, EltTy.bits .f32 = 32 ∨ (Rect.block (s := S8x256x256) S1x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S8x1x128.size a
  hwx0_5 : ∀ i : grid0.Coords, EltTy.bits .f32 = 32 ∨ (Rect.block (s := S8x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S8x1x128.size a
  hwx0_6 : ∀ i : grid0.Coords, EltTy.bits .f32 = 32 ∨ (Rect.block (s := S8x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x256.size a ≤ S8x256x256.size a
  hwx0_7 : ∀ i : grid0.Coords, EltTy.bits .f32 = 32 ∨ (Rect.block (s := S8x256x256) S1x16x256.size (cc0_transform_7 i) (hinb0_7 i)).WholeWords (EltTy.packing .f32)

variable [Facts₀]

abbrev win0_0 : Pipeline.Window sig grid0 :=
  Pipeline.Window.ofSpec (Memref.whole main_v21) S1x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x16x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x128x4 : Shape := ⟨3, ![8, 128, 4]⟩
abbrev S8x256x256x2 : Shape := ⟨4, ![8, 256, 256, 2]⟩
abbrev S8x128x1 : Shape := ⟨3, ![8, 128, 1]⟩
abbrev S8x128 : Shape := ⟨2, ![8, 128]⟩
abbrev S8x128x2 : Shape := ⟨3, ![8, 128, 2]⟩
abbrev S8x256x256x1x2 : Shape := ⟨5, ![8, 256, 256, 1, 2]⟩
abbrev S8x1x1x128x2 : Shape := ⟨5, ![8, 1, 1, 128, 2]⟩
abbrev S8x256x256x128x2 : Shape := ⟨5, ![8, 256, 256, 128, 2]⟩
abbrev S_ : Shape := ⟨0, ![]⟩
abbrev S8x256x256x128 : Shape := ⟨4, ![8, 256, 256, 128]⟩
abbrev S8x1x1x128 : Shape := ⟨4, ![8, 1, 1, 128]⟩
abbrev S8x256x256 : Shape := ⟨3, ![8, 256, 256]⟩
abbrev S8x256x256x1 : Shape := ⟨4, ![8, 256, 256, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x128x4, .f32⟩
  | .hbm, ⟨1, _⟩ => ⟨S8x256x256x2, .f32⟩
  | .hbm, ⟨2, _⟩ => ⟨S8x128x1, .f32⟩
  | .hbm, ⟨3, _⟩ => ⟨S8x128, .f32⟩
  | .hbm, ⟨4, _⟩ => ⟨S8x128x1, .f32⟩
  | .hbm, ⟨5, _⟩ => ⟨S8x128, .f32⟩
  | .hbm, ⟨6, _⟩ => ⟨S8x128x1, .f32⟩
  | .hbm, ⟨7, _⟩ => ⟨S8x128, .f32⟩
  | .hbm, ⟨8, _⟩ => ⟨S8x128x1, .f32⟩
  | .hbm, ⟨9, _⟩ => ⟨S8x128, .f32⟩
  | .hbm, ⟨10, _⟩ => ⟨S8x128x1, .f32⟩
  | .hbm, ⟨11, _⟩ => ⟨S8x128x1, .f32⟩
  | .hbm, ⟨12, _⟩ => ⟨S8x128x2, .f32⟩
  | .hbm, ⟨13, _⟩ => ⟨S8x256x256x1x2, .f32⟩
  | .hbm, ⟨14, _⟩ => ⟨S8x1x1x128x2, .f32⟩
  | .hbm, ⟨15, _⟩ => ⟨S8x256x256x128x2, .f32⟩
  | .hbm, ⟨16, _⟩ => ⟨S8x256x256x128x2, .f32⟩
  | .hbm, ⟨17, _⟩ => ⟨S8x256x256x128x2, .f32⟩
  | .hbm, ⟨18, _⟩ => ⟨S8x256x256x128x2, .f32⟩
  | .hbm, ⟨19, _⟩ => ⟨S_, .f32⟩
  | .hbm, ⟨20, _⟩ => ⟨S8x256x256x128, .f32⟩
  | .hbm, ⟨21, _⟩ => ⟨S8x128, .f32⟩
  | .hbm, ⟨22, _⟩ => ⟨S8x1x1x128, .f32⟩
  | .hbm, ⟨23, _⟩ => ⟨S8x256x256x128, .f32⟩
  | .hbm, ⟨24, _⟩ => ⟨S8x256x256x128, .f32⟩
  | .hbm, ⟨25, _⟩ => ⟨S8x256x256x128, .f32⟩
  | .hbm, ⟨26, _⟩ => ⟨S8x256x256x128, .f32⟩
  | .hbm, ⟨27, _⟩ => ⟨S_, .f32⟩
  | .hbm, ⟨28, _⟩ => ⟨S8x1x1x128, .f32⟩
  | .hbm, ⟨29, _⟩ => ⟨S8x1x1x128, .f32⟩
  | .hbm, ⟨30, _⟩ => ⟨S8x256x256x128, .f32⟩
  | .hbm, ⟨31, _⟩ => ⟨S8x256x256x128, .f32⟩
  | .hbm, ⟨32, _⟩ => ⟨S8x1x1x128, .f32⟩
  | .hbm, ⟨33, _⟩ => ⟨S8x256x256x128, .f32⟩
  | .hbm, ⟨34, _⟩ => ⟨S8x256x256x128, .f32⟩
  | .hbm, ⟨35, _⟩ => ⟨S_, .f32⟩
  | .hbm, ⟨36, _⟩ => ⟨S8x256x256, .f32⟩
  | .hbm, ⟨37, _⟩ => ⟨S8x256x256x1, .f32⟩
  | _, _ => ⟨S8x128x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_1 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]

class Facts₀ : Prop where
  slices_S8x128x4_S8x128x1_0_0_0 : S8x128x4.Slices ![0, 0, 0] S8x128x1
  shapeCasts_S8x128x1_S8x128 : S8x128x1.ShapeCasts S8x128
  slices_S8x128x4_S8x128x1_0_0_1 : S8x128x4.Slices ![0, 0, 1] S8x128x1
  slices_S8x128x4_S8x128x1_0_0_2 : S8x128x4.Slices ![0, 0, 2] S8x128x1
  slices_S8x128x4_S8x128x1_0_0_3 : S8x128x4.Slices ![0, 0, 3] S8x128x1
  bcast_S8x128_S8x128x1_0_1 : S8x128.BroadcastsInDim S8x128x1 (![0, 1] : Fin 2 → Fin S8x128x1.rank)
  concatenates_S8x128x1_S8x128x1_S8x128x2_d2 : Shape.Concatenates [S8x128x1, S8x128x1] S8x128x2 2
  bcast_S8x256x256x2_S8x256x256x1x2_0_1_2_4 : S8x256x256x2.BroadcastsInDim S8x256x256x1x2 (![0, 1, 2, 4] : Fin 4 → Fin S8x256x256x1x2.rank)
  bcast_S8x128x2_S8x1x1x128x2_0_3_4 : S8x128x2.BroadcastsInDim S8x1x1x128x2 (![0, 3, 4] : Fin 3 → Fin S8x1x1x128x2.rank)
  bcast_S8x256x256x1x2_S8x256x256x128x2_0_1_2_3_4 : S8x256x256x1x2.BroadcastsInDim S8x256x256x128x2 (![0, 1, 2, 3, 4] : Fin 5 → Fin S8x256x256x128x2.rank)
  bcast_S8x1x1x128x2_S8x256x256x128x2_0_1_2_3_4 : S8x1x1x128x2.BroadcastsInDim S8x256x256x128x2 (![0, 1, 2, 3, 4] : Fin 5 → Fin S8x256x256x128x2.rank)
  reducesTo_S8x256x256x128x2_S8x256x256x128_d4 : S8x256x256x128x2.ReducesTo [4] S8x256x256x128
  h_S_ : 0 < S_.numel
  bcast_S8x128_S8x1x1x128_0_3 : S8x128.BroadcastsInDim S8x1x1x128 (![0, 3] : Fin 2 → Fin S8x1x1x128.rank)
  bcast_S8x1x1x128_S8x256x256x128_0_1_2_3 : S8x1x1x128.BroadcastsInDim S8x256x256x128 (![0, 1, 2, 3] : Fin 4 → Fin S8x256x256x128.rank)
  bcast_S_S8x1x1x128 : S_.BroadcastsInDim S8x1x1x128 (![] : Fin 0 → Fin S8x1x1x128.rank)
  reducesTo_S8x256x256x128_S8x256x256_d3 : S8x256x256x128.ReducesTo [3] S8x256x256
  bcast_S8x256x256_S8x256x256x1_0_1_2 : S8x256x256.BroadcastsInDim S8x256x256x1 (![0, 1, 2] : Fin 3 → Fin S8x256x256x1.rank)

variable [Facts₀]

class Facts : Prop extends Facts₀ where

variable [Facts]
-- ==== Proof.FalloffTerm.lean ====
import Idealize.ShloMosaic.PureOps.Ideal

/-
  One vortex source's contribution to the vorticity at one grid point, on the extended reals, in the two
  arrangements the two programs use, and the law that joins them.

  A source is (y, x, tau, sigma); a point is (p0, p1). With s = (p0 - y)^2 + (p1 - x)^2 the squared distance,

    * one arrangement multiplies by reciprocals taken beforehand:
          tau * ( exp( (zero - s) * (1 / sigma^2) ) * (1 / (P * sigma^2)) )
    * the other divides in place:
          tau * ( exp( (-(0 + s)) / sigma^2 ) / (P * sigma^2) )

  (P is whatever the pi word denotes; it is the same word in both and is never evaluated. The negation is spelt
  "zero minus", zero and one being what the zero and one words denote.)

  For real arguments with sigma ≠ 0 both are the real number  tau * exp(-s / sigma^2) / (P * sigma^2):
    - sigma^2 is a nonzero real, so dividing by it IS multiplying by its reciprocal, and the two exponents agree;
    - the exponential of a real is a POSITIVE real e, and for such an e the identity  e * (1 / c) = e / c  holds for
      EVERY extended real c, zero and the infinities included (at c = 0 both sides are +∞), so the normalising
      factor needs no case analysis on P.
  At sigma = 0 the law fails (the first arrangement gives 0 * ∞ = 0 where the second gives 0 / 0), which is why
  sigma ≠ 0 is part of the domain.
-/

noncomputable section

namespace Cert.FalloffTerm

open Idealize.ShloMosaic

/-- The word 0x3F800000 denotes the number one. -/
theorem word_one : Ideal.ofBits .f32 0x3F800000#32 = 1 := by
  simp [Ideal.ofBits, Ideal.ieee, -EReal.coe_mul]; norm_num

/-- The arrangement with reciprocals taken beforehand ("zero" is what the squared distance is subtracted from, "one"
    what the reciprocals are taken of). -/
def recipForm (zero one P p0 p1 y x tau sigma : EReal) : EReal :=
  tau * (Ideal.exp ((zero - ((p0 - y) * (p0 - y) + (p1 - x) * (p1 - x))) * Ideal.div one (sigma * sigma))
    * Ideal.div one (P * (sigma * sigma)))

/-- The arrangement that divides in place ("zero" stands for the initial value of the two-term sum). -/
def quotForm (zero P p0 p1 y x tau sigma : EReal) : EReal :=
  tau * Ideal.div (Ideal.exp (Ideal.div (-(zero + ((p0 - y) * (p0 - y) + (p1 - x) * (p1 - x)))) (sigma * sigma)))
    (P * (sigma * sigma))

/-- A positive real times the reciprocal of ANY extended real is the quotient by it. -/
theorem pos_mul_recip (e : ℝ) (he : 0 < e) (c : EReal) : (e : EReal) * Ideal.div 1 c = Ideal.div (e : EReal) c := by
  unfold Ideal.div
  by_cases hc : c = 0
  · rw [if_pos hc, if_pos hc, if_pos (by exact_mod_cast one_pos), if_pos (by exact_mod_cast he)]
    exact EReal.coe_mul_top_of_pos he
  · rw [if_neg hc, if_neg hc, one_mul]

/-- The law: for real arguments and a nonzero width the two arrangements are one extended real. -/
theorem recipForm_eq_quotForm (P : EReal) (p0 p1 y x tau sigma : ℝ) (hs : sigma ≠ 0) :
    recipForm 0 1 P p0 p1 y x tau sigma = quotForm 0 P p0 p1 y x tau sigma := by
  unfold recipForm quotForm
  have hq : sigma * sigma ≠ 0 := mul_ne_zero hs hs
  have e1 : ((p0 : EReal) - y) * (p0 - y) + ((p1 : EReal) - x) * (p1 - x)
      = (((p0 - y) * (p0 - y) + (p1 - x) * (p1 - x) : ℝ) : EReal) := by push_cast; rfl
  have e2 : (sigma : EReal) * sigma = ((sigma * sigma : ℝ) : EReal) := by push_cast; rfl
  rw [e1, e2, zero_add, Ideal.div_coe hq, Ideal.div_coe hq, one_mul]
  set s : ℝ := (p0 - y) * (p0 - y) + (p1 - x) * (p1 - x)
  have e3 : (0 : EReal) - (s : EReal) = -(s : EReal) := by
    rw [← EReal.coe_zero, ← EReal.coe_sub, ← EReal.coe_neg]; congr 1; ring
  rw [e3, ← EReal.coe_neg, ← EReal.coe_mul, Ideal.exp_coe, pos_mul_recip _ (Real.exp_pos _)]

end Cert.FalloffTerm

end
-- ==== Proof.Vorticity.lean ====
import Idealize.ShloMosaic.Lib.ValueIdx
import proofs.«118901_j84421877170797_2_alg».proof.Proof.FalloffTerm

/-
  The vorticity field of a batch of Gaussian vortex sources, as ONE function of the two argument arrays.

    sources : [8, 128, 4]      — per batch b and source n the four numbers (y, x, tau, sigma)
    points  : [8, 256, 256, 2] — per batch b and grid point (h, w) its two coordinates (p0, p1)
    field   : [8, 256, 256, 1] — per batch and grid point the sum over the 128 sources of one source's contribution

  The contribution is written in the two arrangements of FalloffTerm (reciprocals taken beforehand / division in
  place); a sum of 128 extended reals does not depend on how its terms were obtained, so the two fields are equal as
  soon as they are equal term by term, which the law of FalloffTerm gives wherever every entry is a real number and no
  width sigma is zero. One field starts its sum from nothing, the other from the zero word; that word denotes 0.
-/

noncomputable section

namespace Cert.Vorticity

open Idealize.ShloMosaic Idealize.ShloMosaic.ValueIdx Cert.FalloffTerm

abbrev Sources : Shape := ⟨3, ![8, 128, 4]⟩
abbrev Points : Shape := ⟨4, ![8, 256, 256, 2]⟩
abbrev Field : Shape := ⟨4, ![8, 256, 256, 1]⟩

/-- The three float words the programs spell: zero, one and the single-precision pi. -/
abbrev zeroW : EReal := Ideal.ofBits .f32 0x00000000#32
abbrev oneW : EReal := Ideal.ofBits .f32 0x3F800000#32
abbrev piW : EReal := Ideal.ofBits .f32 0x40490FDB#32

theorem zeroW_eq : zeroW = 0 := by simp [Ideal.ofBits, Ideal.ieee]

/-- Source n of batch b seen from the point (h, w) of that batch, reciprocals taken beforehand. -/
def recipAt (vf : Sources.Idx → EReal) (pts : Points.Idx → EReal) (b : Fin 8) (h w : Fin 256) (n : Fin 128) : EReal :=
  recipForm zeroW oneW piW (pts (ix4 b h w (0 : Fin 2))) (pts (ix4 b h w (1 : Fin 2)))
    (vf (ix3 b n (0 : Fin 4))) (vf (ix3 b n (1 : Fin 4))) (vf (ix3 b n (2 : Fin 4))) (vf (ix3 b n (3 : Fin 4)))

/-- The same, dividing in place. -/
def quotAt (vf : Sources.Idx → EReal) (pts : Points.Idx → EReal) (b : Fin 8) (h w : Fin 256) (n : Fin 128) : EReal :=
  quotForm zeroW piW (pts (ix4 b h w (0 : Fin 2))) (pts (ix4 b h w (1 : Fin 2)))
    (vf (ix3 b n (0 : Fin 4))) (vf (ix3 b n (1 : Fin 4))) (vf (ix3 b n (2 : Fin 4))) (vf (ix3 b n (3 : Fin 4)))

/-- The field as the sum of the contributions with reciprocals taken beforehand. -/
def recipField (vf : Sources.Idx → EReal) (pts : Points.Idx → EReal) : Field.Idx → EReal :=
  fun j => ∑ n : Fin 128, recipAt vf pts (j 0) (j 1) (j 2) n

/-- The field as the zero word plus the sum of the contributions that divide in place. -/
def quotField (vf : Sources.Idx → EReal) (pts : Points.Idx → EReal) : Field.Idx → EReal :=
  fun j => zeroW + ∑ n : Fin 128, quotAt vf pts (j 0) (j 1) (j 2) n

/-- On real entries with every width nonzero the two fields are one. -/
theorem recipField_eq_quotField (vf : Sources.Idx → EReal) (pts : Points.Idx → EReal)
    (hvf : ∀ j, ∃ r : ℝ, vf j = (r : EReal)) (hpts : ∀ j, ∃ r : ℝ, pts j = (r : EReal))
    (hsig : ∀ (b : Fin 8) (n : Fin 128), vf (ix3 b n (3 : Fin 4)) ≠ 0) :
    recipField vf pts = quotField vf pts := by
  funext j
  unfold recipField quotField
  rw [zeroW_eq, zero_add]
  refine Finset.sum_congr rfl fun n _ => ?_
  unfold recipAt quotAt
  obtain ⟨p0, e0⟩ := hpts (ix4 (j 0) (j 1) (j 2) (0 : Fin 2))
  obtain ⟨p1, e1⟩ := hpts (ix4 (j 0) (j 1) (j 2) (1 : Fin 2))
  obtain ⟨y, ey⟩ := hvf (ix3 (j 0) n (0 : Fin 4))
  obtain ⟨x, ex⟩ := hvf (ix3 (j 0) n (1 : Fin 4))
  obtain ⟨t, et⟩ := hvf (ix3 (j 0) n (2 : Fin 4))
  obtain ⟨s, es⟩ := hvf (ix3 (j 0) n (3 : Fin 4))
  have hs : s ≠ 0 := by
    have h := hsig (j 0) n
    rw [es] at h
    exact_mod_cast h
  rw [e0, e1, ey, ex, et, es]
  show recipForm (Ideal.ofBits .f32 0x00000000#32) (Ideal.ofBits .f32 0x3F800000#32) _ _ _ _ _ _ _
    = quotForm (Ideal.ofBits .f32 0x00000000#32) _ _ _ _ _ _ _
  rw [word_one, show Ideal.ofBits .f32 0x00000000#32 = (0 : EReal) from zeroW_eq]
  exact recipForm_eq_quotForm _ p0 p1 y x t s hs

end Cert.Vorticity

end
-- ==== Proof.LibFiniteIsReal.lean ====
import Idealize.ShloMosaic.Lib.ReduceAll
import Idealize.ShloMosaic.Lib.ValueIdx
import Idealize.ShloMosaic.PureOps.Ideal

/-
  "Every entry is finite" read over the extended reals (any shape).

  A host predicate of the form  all(|x| < +∞)  — the absolute value taken entrywise, compared strictly with the splat
  of the word 0x7F800000, the comparisons folded by `and` from `true` into a scalar — holds exactly when no entry of
  x is +∞ or −∞, so when it holds every entry of x is (the image of) a real number:

  * word_inf                 — the word 0x7F800000 denotes +∞;
  * real_of_abs_lt_inf       — max a (−a) < +∞ makes a a real number;
  * all_real_of_all_finite   — the predicate, for an array of any shape reduced over any axes to a scalar, gives a real
                               number at every index.
-/

noncomputable section

namespace Cert.LibFiniteIsReal

open Idealize.ShloMosaic

/-- The word 0x7F800000 denotes +∞. -/
theorem word_inf : Ideal.ofBits .f32 0x7F800000#32 = (⊤ : EReal) := by
  simp [Ideal.ofBits, Ideal.ieee]

/-- An extended real whose absolute value is strictly below +∞ is a real number. -/
theorem real_of_abs_lt_inf (a : EReal)
    (h : Ideal.cmp .olt (max a (-a)) (Ideal.ofBits .f32 0x7F800000#32) = 1#1) : ∃ r : ℝ, a = (r : EReal) := by
  rw [word_inf] at h
  induction a using EReal.rec with
  | bot => simp [Ideal.cmp] at h
  | coe r => exact ⟨r, rfl⟩
  | top => simp [Ideal.cmp] at h

/-- The scalar shape has one index. -/
instance : Subsingleton (⟨0, ![]⟩ : Shape).Idx := ⟨fun _ _ => funext fun d => d.elim0⟩

/-- If all(|x| < +∞) holds of an array x of any shape, every entry of x is a real number. -/
theorem all_real_of_all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 ValueIdx.ix0 = 1#1) :
    ∀ j, ∃ r : ℝ, x j = (r : EReal) :=
  fun j => real_of_abs_lt_inf _ (Host.reduce_andi_all _ _ hr h0 _ e j)

end Cert.LibFiniteIsReal

end
-- ==== Proof.PreDomain.lean ====
import proofs.«118901_j84421877170797_2_alg».proof.Pre_finite_inputs
import proofs.«118901_j84421877170797_2_alg».proof.Proof.LibFiniteIsReal
import Idealize.ShloMosaic.Lib.ReduceAll
import Idealize.ShloMosaic.Lib.ValueIdx
import Idealize.ShloMosaic.Lib.Pipeline.Value

/-
  What the precondition says, read over the extended reals.

  The predicate is the conjunction of three "for all entries" tests folded by `and` into one bit:
      all(|sources| < +∞)  ∧  all(|points| < +∞)  ∧  all(sources[..., 3] ≠ 0).
  When the bit is one, each test holds at every entry: the first two make every entry of both arrays a real number,
  and the third says that column 3 of the sources — the widths sigma, read as the [8, 128] array obtained by cutting
  the last axis at 3 and dropping it — is nowhere zero.
-/

noncomputable section

namespace Cert.PreDomain

open Idealize.ShloMosaic Idealize.ShloMosaic.ValueIdx Cert.Pre_finite_inputs

variable [Cert.Pre_finite_inputs.Facts]
open Cert.Pre_finite_inputs.Facts

/-- An extended real that compares "not equal" with the zero word is not zero. -/
theorem ne_zero_of_une (a : EReal) (h : Ideal.cmp .une a (Ideal.ofBits .f32 0x00000000#32) = 1#1) : a ≠ 0 := by
  have hz : Ideal.ofBits .f32 0x00000000#32 = (0 : EReal) := by simp [Ideal.ofBits, Ideal.ieee]
  rw [hz] at h
  intro ha
  subst ha
  simp [Ideal.cmp] at h

/-- Column 3 of the sources, as the [8, 128] array the predicate tests, read at (b, n). -/
theorem width_column_apply (a0 : FVec Ideal S8x128x4 .f32) (b : Fin 8) (n : Fin 128) :
    shapeCast S8x128 (extractStridedSlice S8x128x1 ![0, 0, 3] a0 slices_S8x128x4_S8x128x1_0_0_3) shapeCasts_S8x128x1_S8x128 (ix2 b n)
      = a0 (ix3 b n (3 : Fin 4)) := by
  rw [shapeCast_apply _ shapeCasts_S8x128x1_S8x128 (ix2 b n) (ix3 b n (0 : Fin 1))
    (by rewrite [Shape.rowMajor_val_three, Shape.rowMajor_val_two]
        show (b.val * 128 + n.val) * 1 + 0 = b.val * 128 + n.val
        omega)]
  exact extractStridedSlice_apply _ a0 _ (ix3 b n (0 : Fin 1)) (ix3 b n (3 : Fin 4)) (fun a => match a with
    | ⟨0, _⟩ => by show b.val = 0 + b.val; omega
    | ⟨1, _⟩ => by show n.val = 0 + n.val; omega
    | ⟨2, _⟩ => by show 3 = 3 + 0; omega)

/-- The domain: when the predicate is one, all entries are real numbers and no width is zero. -/
theorem domain (a0 : FVec Ideal S8x128x4 .f32) (a1 : FVec Ideal S8x256x256x2 .f32)
    (h : Cert.Pre_finite_inputs.fn (F := Ideal) a0 a1 = fun _ => 1#1) :
    (∀ j, ∃ r : ℝ, a0 j = (r : EReal)) ∧ (∀ j, ∃ r : ℝ, a1 j = (r : EReal))
      ∧ ∀ (b : Fin 8) (n : Fin 128), a0 (ix3 b n (3 : Fin 4)) ≠ 0 := by
  have h0 := congrFun h ix0
  dsimp only [Cert.Pre_finite_inputs.fn] at h0
  obtain ⟨h12, h3⟩ := IntOp.andi_eq_one.mp h0
  obtain ⟨h1, h2⟩ := IntOp.andi_eq_one.mp h12
  refine ⟨Cert.LibFiniteIsReal.all_real_of_all_finite a0 bcast_S_S8x128x4 reducesTo_S8x128x4_S_d0_1_2 h_S_ h1,
    Cert.LibFiniteIsReal.all_real_of_all_finite a1 bcast_S_S8x256x256x2 reducesTo_S8x256x256x2_S_d0_1_2_3 h_S_ h2,
    fun b n => ?_⟩
  have hc := Host.reduce_andi_all _ _ reducesTo_S8x128_S_d0_1 h_S_ _ h3 (ix2 b n)
  rw [← width_column_apply a0 b n]
  exact ne_zero_of_une _ hc

end Cert.PreDomain

end
-- ==== Proof.RefField.lean ====
import proofs.«118901_j84421877170797_2_alg».proof.Proof.Gen.ReferenceIdeal.Read
import proofs.«118901_j84421877170797_2_alg».proof.Proof.Vorticity
import Idealize.ShloMosaic.Lib.ValueIdx
import Idealize.ShloMosaic.Lib.Pipeline.Value

/-
  The reference program's result is the field in the arrangement that divides in place.

  Read one operation at a time (the generated reads), at indices given by their coordinates:
    * column k of the sources — cut the last axis at k, drop it — at (b, n) is sources (b, n, k);
    * the "location" array [8, 128, 2] joins columns 0 and 1 along a new last axis: at (b, n, 0) it is y, at (b, n, 1) x;
    * the difference array at (b, h, w, n, k) is points (b, h, w, k) minus location (b, n, k); the squared distance at
      (b, h, w, n) is the zero word plus the two squared differences;
    * sigma^2 at (b, n) is column 3 times itself, spread over (h, w); the normaliser is the pi word times it;
    * the strength at (b, h, w, n) is tau times exp(-(squared distance) / sigma^2) / normaliser, and the result at
      (b, h, w, 0) is the zero word plus the sum over n.
-/

noncomputable section

namespace Cert.RefField

open Idealize.ShloMosaic Idealize.ShloMosaic.ValueIdx
open Cert.ReferenceIdeal Cert.ReferenceIdeal.Gen Cert.ReferenceIdeal.Read Cert.Vorticity

variable (x0 : (⟨S8x128x4, .f32⟩ : BufTy).Contents (Elt Ideal)) (x1 : (⟨S8x256x256x2, .f32⟩ : BufTy).Contents (Elt Ideal))

/-! ## The four columns of the sources -/

theorem col0 (b : Fin 8) (n : Fin 128) : val_main_v1 (F := Ideal) x0 (ix2 b n) = x0 (ix3 b n (0 : Fin 4)) := by
  rw [val_main_v1_apply, val_main_v0_apply]
  refine congrArg x0 (funext fun a => Fin.ext ?_)
  have hb := b.isLt; have hn := n.isLt
  match a with
  | ⟨0, _⟩ => show (b.val * 128 + n.val) / 128 = b.val; omega
  | ⟨1, _⟩ => show (b.val * 128 + n.val) / 1 % 128 = n.val; omega
  | ⟨2, _⟩ => rfl

theorem col1 (b : Fin 8) (n : Fin 128) : val_main_v3 (F := Ideal) x0 (ix2 b n) = x0 (ix3 b n (1 : Fin 4)) := by
  rw [val_main_v3_apply, val_main_v2_apply]
  refine congrArg x0 (funext fun a => Fin.ext ?_)
  have hb := b.isLt; have hn := n.isLt
  match a with
  | ⟨0, _⟩ => show (b.val * 128 + n.val) / 128 = b.val; omega
  | ⟨1, _⟩ => show (b.val * 128 + n.val) / 1 % 128 = n.val; omega
  | ⟨2, _⟩ => rfl

theorem col2 (b : Fin 8) (n : Fin 128) : val_main_v5 (F := Ideal) x0 (ix2 b n) = x0 (ix3 b n (2 : Fin 4)) := by
  rw [val_main_v5_apply, val_main_v4_apply]
  refine congrArg x0 (funext fun a => Fin.ext ?_)
  have hb := b.isLt; have hn := n.isLt
  match a with
  | ⟨0, _⟩ => show (b.val * 128 + n.val) / 128 = b.val; omega
  | ⟨1, _⟩ => show (b.val * 128 + n.val) / 1 % 128 = n.val; omega
  | ⟨2, _⟩ => rfl

theorem col3 (b : Fin 8) (n : Fin 128) : val_main_v7 (F := Ideal) x0 (ix2 b n) = x0 (ix3 b n (3 : Fin 4)) := by
  rw [val_main_v7_apply, val_main_v6_apply]
  refine congrArg x0 (funext fun a => Fin.ext ?_)
  have hb := b.isLt; have hn := n.isLt
  match a with
  | ⟨0, _⟩ => show (b.val * 128 + n.val) / 128 = b.val; omega
  | ⟨1, _⟩ => show (b.val * 128 + n.val) / 1 % 128 = n.val; omega
  | ⟨2, _⟩ => rfl

/-! ## The location array: y and x joined along a new last axis -/

theorem ycol (b : Fin 8) (n : Fin 128) (z : Fin 1) : val_main_v8 (F := Ideal) x0 (ix3 b n z) = x0 (ix3 b n (0 : Fin 4)) := by
  rw [val_main_v8_apply, show idx_main_v8 (ix3 b n z) = ix2 b n from
    funext fun a => by match a with | ⟨0, _⟩ => rfl | ⟨1, _⟩ => rfl]
  exact col0 x0 b n

theorem xcol (b : Fin 8) (n : Fin 128) (z : Fin 1) : val_main_v9 (F := Ideal) x0 (ix3 b n z) = x0 (ix3 b n (1 : Fin 4)) := by
  rw [val_main_v9_apply, show idx_main_v9 (ix3 b n z) = ix2 b n from
    funext fun a => by match a with | ⟨0, _⟩ => rfl | ⟨1, _⟩ => rfl]
  exact col1 x0 b n

theorem loc0 (b : Fin 8) (n : Fin 128) : val_main_v10 (F := Ideal) x0 (ix3 b n (0 : Fin 2)) = x0 (ix3 b n (0 : Fin 4)) := by
  unfold val_main_v10
  refine (concatenate_pair_apply_left _ _ _ concatenates_S8x128x1_S8x128x1_S8x128x2_d2 (ix3 b n (0 : Fin 2)) rfl
    (ix3 b n (0 : Fin 1)) (fun a => by match a with | ⟨0, _⟩ => rfl | ⟨1, _⟩ => rfl | ⟨2, _⟩ => rfl)).trans ?_
  exact ycol x0 b n 0

theorem loc1 (b : Fin 8) (n : Fin 128) : val_main_v10 (F := Ideal) x0 (ix3 b n (1 : Fin 2)) = x0 (ix3 b n (1 : Fin 4)) := by
  unfold val_main_v10
  refine (concatenate_pair_apply_right _ _ _ concatenates_S8x128x1_S8x128x1_S8x128x2_d2 (ix3 b n (1 : Fin 2)) rfl rfl
    (ix3 b n (0 : Fin 1))
    (fun a ha => by
      match a, ha with
      | ⟨0, _⟩, _ => rfl
      | ⟨1, _⟩, _ => rfl
      | ⟨2, _⟩, h => exact absurd rfl h)
    rfl).trans ?_
  exact xcol x0 b n 0

/-! ## Differences and the squared distance -/

theorem diff (b : Fin 8) (h w : Fin 256) (n : Fin 128) (k : Fin 2) :
    val_main_v15 (F := Ideal) x0 x1 (ix5 b h w n k) = x1 (ix4 b h w k) - val_main_v10 (F := Ideal) x0 (ix3 b n k) := by
  rw [val_main_v15_apply, val_main_v13_apply, val_main_v11_apply, val_main_v14_apply, val_main_v12_apply,
    show idx_main_v11 (idx_main_v13 (ix5 b h w n k)) = ix4 b h w k from
      funext fun a => by match a with | ⟨0, _⟩ => rfl | ⟨1, _⟩ => rfl | ⟨2, _⟩ => rfl | ⟨3, _⟩ => rfl,
    show idx_main_v12 (idx_main_v14 (ix5 b h w n k)) = ix3 b n k from
      funext fun a => by match a with | ⟨0, _⟩ => rfl | ⟨1, _⟩ => rfl | ⟨2, _⟩ => rfl]
  rfl

theorem sqdist (b : Fin 8) (h w : Fin 256) (n : Fin 128) :
    val_main_v17 (F := Ideal) x0 x1 (ix4 b h w n)
      = zeroW + ((x1 (ix4 b h w (0 : Fin 2)) - x0 (ix3 b n (0 : Fin 4))) * (x1 (ix4 b h w (0 : Fin 2)) - x0 (ix3 b n (0 : Fin 4)))
          + (x1 (ix4 b h w (1 : Fin 2)) - x0 (ix3 b n (1 : Fin 4))) * (x1 (ix4 b h w (1 : Fin 2)) - x0 (ix3 b n (1 : Fin 4)))) := by
  rw [val_main_v17_apply, Fin.sum_univ_two,
    show idx_main_v17 (ix4 b h w n) (0 : Fin 2) = ix5 b h w n (0 : Fin 2) from
      funext fun a => by match a with | ⟨0, _⟩ => rfl | ⟨1, _⟩ => rfl | ⟨2, _⟩ => rfl | ⟨3, _⟩ => rfl | ⟨4, _⟩ => rfl,
    show idx_main_v17 (ix4 b h w n) (1 : Fin 2) = ix5 b h w n (1 : Fin 2) from
      funext fun a => by match a with | ⟨0, _⟩ => rfl | ⟨1, _⟩ => rfl | ⟨2, _⟩ => rfl | ⟨3, _⟩ => rfl | ⟨4, _⟩ => rfl,
    val_main_v16_apply, val_main_v16_apply, diff, diff, loc0, loc1]
  rfl

/-! ## sigma^2, the normaliser and tau, spread over the grid -/

theorem sig2 (b : Fin 8) (h w : Fin 256) (n : Fin 128) :
    val_main_v21 (F := Ideal) x0 (ix4 b h w n) = x0 (ix3 b n (3 : Fin 4)) * x0 (ix3 b n (3 : Fin 4)) := by
  rw [val_main_v21_apply, val_main_v19_apply, val_main_v18_apply,
    show idx_main_v19 (idx_main_v21 (ix4 b h w n)) = ix2 b n from
      funext fun a => by match a with | ⟨0, _⟩ => rfl | ⟨1, _⟩ => rfl,
    col3]
  rfl

theorem normaliser (b : Fin 8) (h w : Fin 256) (n : Fin 128) :
    val_main_v26 (F := Ideal) x0 (ix4 b h w n) = piW * (x0 (ix3 b n (3 : Fin 4)) * x0 (ix3 b n (3 : Fin 4))) := by
  rw [val_main_v26_apply, val_main_v25_apply, val_main_v24_apply, val_main_v19_apply, val_main_v18_apply,
    show idx_main_v19 (idx_main_v26 (ix4 b h w n)) = ix2 b n from
      funext fun a => by match a with | ⟨0, _⟩ => rfl | ⟨1, _⟩ => rfl,
    col3]
  rfl

theorem tau (b : Fin 8) (h w : Fin 256) (n : Fin 128) :
    val_main_v29 (F := Ideal) x0 (ix4 b h w n) = x0 (ix3 b n (2 : Fin 4)) := by
  rw [val_main_v29_apply, val_main_v28_apply,
    show idx_main_v28 (idx_main_v29 (ix4 b h w n)) = ix2 b n from
      funext fun a => by match a with | ⟨0, _⟩ => rfl | ⟨1, _⟩ => rfl,
    col2]

/-! ## One source's strength, and the field -/

theorem strength (b : Fin 8) (h w : Fin 256) (n : Fin 128) :
    val_main_v30 (F := Ideal) x0 x1 (ix4 b h w n) = quotAt x0 x1 b h w n := by
  rw [val_main_v30_apply, val_main_v27_apply, val_main_v23_apply, val_main_v22_apply, val_main_v20_apply,
    tau, normaliser, sig2, sqdist]
  rfl

/-- The reference's result, as the generated run states it, is the quotient-form field of its two arguments. -/
theorem result_eq : val_main_v32 (F := Ideal) x0 x1 = quotField x0 x1 := by
  funext j
  obtain ⟨b, h, w, z, rfl⟩ : ∃ (b : Fin 8) (h w : Fin 256) (z : Fin 1), j = ix4 b h w z :=
    ⟨j 0, j 1, j 2, j 3, eq_ix4 j⟩
  rw [val_main_v32_apply, val_main_v31_apply]
  unfold quotField
  refine congrArg₂ (· + ·) rfl (Finset.sum_congr rfl fun n _ => ?_)
  rw [show idx_main_v31 (idx_main_v32 (ix4 b h w z)) n = ix4 b h w n from
    funext fun a => by match a with | ⟨0, _⟩ => rfl | ⟨1, _⟩ => rfl | ⟨2, _⟩ => rfl | ⟨3, _⟩ => rfl]
  exact strength x0 x1 b h w n

end Cert.RefField

end
-- ==== Proof.BlockValue.lean ====
import proofs.«118901_j84421877170797_2_alg».proof.Proof.Gen.KernelIdeal.Skeleton
import proofs.«118901_j84421877170797_2_alg».proof.Proof.Vorticity
import Idealize.ShloMosaic.Lib.ValueIdx
import Idealize.ShloMosaic.Lib.Pipeline.Value
import Idealize.ShloMosaic.PureOps.Ideal.Laws

/-
  What the kernel body stores, read at one index of its [1, 16, 256] output block.

  The body holds seven blocks: two [1, 16, 256] blocks of point coordinates (p0, p1) and five [1, 1, 128] rows of
  per-source numbers (y, x, tau, and the two reciprocals 1/sigma^2 and 1/(P sigma^2) taken beforehand). It spreads
  the point blocks along a new last axis of length 128 and the source rows over the 16 x 256 points, combines them
  entry by entry, and sums the last axis. So the stored block at (0, r, w) is the sum over the 128 sources n of
      tau_n * ( exp( (zero - ((p0 - y_n)^2 + (p1 - x_n)^2)) * inv_n ) * sc_n )
  with p0, p1 read at (0, r, w) and the source numbers at (0, 0, n).
-/

noncomputable section

namespace Cert.BlockValue

open Idealize.ShloMosaic Idealize.ShloMosaic.ValueIdx
open Cert.KernelIdeal Cert.KernelIdeal.Gen Cert.Vorticity

/-- One source's contribution from the seven numbers the body holds for it at one point. -/
def held (p0 p1 y x tau inv sc : EReal) : EReal :=
  tau * (Ideal.exp ((zeroW - ((p0 - y) * (p0 - y) + (p1 - x) * (p1 - x))) * inv) * sc)

/-- A [1, 16, 256] block of point data, with its unit axis dropped, given a trailing unit axis and spread along it,
    read at (r, w, n): the block at (0, r, w). -/
theorem point_spread (x : Vec Ideal S1x16x256 .f32) (r : Fin 16) (w : Fin 256) (n : Fin 128) :
    broadcastTo S16x256x128
        (shapeCast S16x256x1 (shapeCast S16x256 x shapeCasts_S1x16x256_S16x256) shapeCasts_S16x256_S16x256x1)
        broadcasts_S16x256x1_S16x256x128 (ix3 r w n)
      = x (ix3 (0 : Fin 1) r w) := by
  rw [broadcastTo_apply _ broadcasts_S16x256x1_S16x256x128 (ix3 r w n) (ix3 r w (0 : Fin 1)) (fun a => by
        match a with
        | ⟨0, _⟩ => show r.val = if (16 : Nat) = 1 then 0 else r.val; rw [if_neg (by decide)]
        | ⟨1, _⟩ => show w.val = if (256 : Nat) = 1 then 0 else w.val; rw [if_neg (by decide)]
        | ⟨2, _⟩ => show 0 = if (1 : Nat) = 1 then 0 else n.val; rw [if_pos rfl]),
    shapeCast_apply _ shapeCasts_S16x256_S16x256x1 (ix3 r w (0 : Fin 1)) (ix2 r w)
      (by rewrite [Shape.rowMajor_val_two, Shape.rowMajor_val_three]
          show r.val * 256 + w.val = (r.val * 256 + w.val) * 1 + 0
          omega),
    shapeCast_apply _ shapeCasts_S1x16x256_S16x256 (ix2 r w) (ix3 (0 : Fin 1) r w)
      (by rewrite [Shape.rowMajor_val_three, Shape.rowMajor_val_two]
          show (0 * 16 + r.val) * 256 + w.val = r.val * 256 + w.val
          omega)]

/-- A length-128 vector given two leading unit axes and spread over the 16 x 256 points, read at (r, w, n): entry n. -/
theorem vector_spread (v : FVec Ideal S128 .f32) (r : Fin 16) (w : Fin 256) (n : Fin 128) :
    broadcastTo S16x256x128 (shapeCast S1x1x128 v shapeCasts_S128_S1x1x128) broadcasts_S1x1x128_S16x256x128 (ix3 r w n)
      = v (ix1 n) := by
  rw [broadcastTo_apply _ broadcasts_S1x1x128_S16x256x128 (ix3 r w n) (ix3 (0 : Fin 1) (0 : Fin 1) n) (fun a => by
        match a with
        | ⟨0, _⟩ => show 0 = if (1 : Nat) = 1 then 0 else r.val; rw [if_pos rfl]
        | ⟨1, _⟩ => show 0 = if (1 : Nat) = 1 then 0 else w.val; rw [if_pos rfl]
        | ⟨2, _⟩ => show n.val = if (128 : Nat) = 1 then 0 else n.val; rw [if_neg (by decide)]),
    shapeCast_apply _ shapeCasts_S128_S1x1x128 (ix3 (0 : Fin 1) (0 : Fin 1) n) (ix1 n)
      (by rewrite [Shape.rowMajor_val_one, Shape.rowMajor_val_three]
          show n.val = (0 * 1 + 0) * 128 + n.val
          omega)]

/-- A [1, 1, 128] row with its unit axes dropped, read at n: the row at (0, 0, n). -/
theorem row_entry (x : Vec Ideal S1x1x128 .f32) (n : Fin 128) :
    shapeCast S128 x shapeCasts_S1x1x128_S128 (ix1 n) = x (ix3 (0 : Fin 1) (0 : Fin 1) n) :=
  shapeCast_apply _ shapeCasts_S1x1x128_S128 (ix1 n) (ix3 (0 : Fin 1) (0 : Fin 1) n)
    (by rewrite [Shape.rowMajor_val_three, Shape.rowMajor_val_one]
        show (0 * 1 + 0) * 128 + n.val = n.val
        omega)

/-- A [1, 1, 128] row spread over the points, read at (r, w, n): the row at (0, 0, n). -/
theorem row_spread (x : Vec Ideal S1x1x128 .f32) (r : Fin 16) (w : Fin 256) (n : Fin 128) :
    broadcastTo S16x256x128 (shapeCast S1x1x128 (shapeCast S128 x shapeCasts_S1x1x128_S128) shapeCasts_S128_S1x1x128)
        broadcasts_S1x1x128_S16x256x128 (ix3 r w n)
      = x (ix3 (0 : Fin 1) (0 : Fin 1) n) := by
  rw [vector_spread, row_entry]

/-- The falloff-times-scale factor the first part of the body leaves, at (r, w, n). -/
theorem falloff_apply (x0 x1 : Vec Ideal S1x16x256 .f32) (x2 x3 x5 x6 : Vec Ideal S1x1x128 .f32)
    (r : Fin 16) (w : Fin 256) (n : Fin 128) :
    k0_pay3 (F := Ideal) x0 x1 x2 x3 x5 x6 (ix3 r w n)
      = Ideal.exp ((zeroW - ((x0 (ix3 (0 : Fin 1) r w) - x2 (ix3 (0 : Fin 1) (0 : Fin 1) n)) * (x0 (ix3 (0 : Fin 1) r w) - x2 (ix3 (0 : Fin 1) (0 : Fin 1) n))
            + (x1 (ix3 (0 : Fin 1) r w) - x3 (ix3 (0 : Fin 1) (0 : Fin 1) n)) * (x1 (ix3 (0 : Fin 1) r w) - x3 (ix3 (0 : Fin 1) (0 : Fin 1) n))))
          * x5 (ix3 (0 : Fin 1) (0 : Fin 1) n)) * x6 (ix3 (0 : Fin 1) (0 : Fin 1) n) := by
  rw [← point_spread x0 r w n, ← point_spread x1 r w n, ← row_spread x2 r w n, ← row_spread x3 r w n,
    ← row_spread x5 r w n, ← row_spread x6 r w n]
  rfl

/-- The stored block at (0, r, w): the sum over the sources of what the body holds for each. -/
theorem stored_apply (x0 x1 : Vec Ideal S1x16x256 .f32) (x2 x3 x4 x5 x6 : Vec Ideal S1x1x128 .f32)
    (r : Fin 16) (w : Fin 256) :
    k0_pay1 (F := Ideal) (k0_pay2 (F := Ideal) x4) (k0_pay3 (F := Ideal) x0 x1 x2 x3 x5 x6) (ix3 (0 : Fin 1) r w)
      = ∑ n : Fin 128, held (x0 (ix3 (0 : Fin 1) r w)) (x1 (ix3 (0 : Fin 1) r w))
          (x2 (ix3 (0 : Fin 1) (0 : Fin 1) n)) (x3 (ix3 (0 : Fin 1) (0 : Fin 1) n)) (x4 (ix3 (0 : Fin 1) (0 : Fin 1) n))
          (x5 (ix3 (0 : Fin 1) (0 : Fin 1) n)) (x6 (ix3 (0 : Fin 1) (0 : Fin 1) n)) := by
  unfold k0_pay1
  dsimp only
  refine (shapeCast_apply _ shapeCasts_S16x256_S1x16x256 (ix3 (0 : Fin 1) r w) (ix2 r w)
    (by rewrite [Shape.rowMajor_val_two, Shape.rowMajor_val_three]
        show r.val * 256 + w.val = (0 * 16 + r.val) * 256 + w.val
        omega)).trans ?_
  refine (Ideal.multiReduction_add_single _ 0x00000000#32 reduces_S16x256x128_S16x256 (.inl rfl) rfl (ix2 r w)).trans ?_
  refine Finset.sum_congr rfl fun (n : Fin 128) _ => ?_
  have hl : reduces_S16x256x128_S16x256.lift (ix2 r w) n = ix3 r w n :=
    funext fun a => Fin.ext (by match a with | ⟨0, _⟩ => rfl | ⟨1, _⟩ => rfl | ⟨2, _⟩ => rfl)
  rw [hl]
  show (broadcastTo S16x256x128 (shapeCast S1x1x128 (k0_pay2 (F := Ideal) x4) shapeCasts_S128_S1x1x128)
      broadcasts_S1x1x128_S16x256x128 (ix3 r w n)) * (k0_pay3 (F := Ideal) x0 x1 x2 x3 x5 x6 (ix3 r w n)) = _
  rw [vector_spread, falloff_apply]
  unfold k0_pay2
  rw [row_entry]
  rfl

/-- The same at any index y of the block (its first coordinate can only be 0). -/
theorem stored_at (x0 x1 : Vec Ideal S1x16x256 .f32) (x2 x3 x4 x5 x6 : Vec Ideal S1x1x128 .f32) (y : S1x16x256.Idx) :
    k0_pay1 (F := Ideal) (k0_pay2 (F := Ideal) x4) (k0_pay3 (F := Ideal) x0 x1 x2 x3 x5 x6) y
      = ∑ n : Fin 128, held (x0 y) (x1 y)
          (x2 (ix3 (0 : Fin 1) (0 : Fin 1) n)) (x3 (ix3 (0 : Fin 1) (0 : Fin 1) n)) (x4 (ix3 (0 : Fin 1) (0 : Fin 1) n))
          (x5 (ix3 (0 : Fin 1) (0 : Fin 1) n)) (x6 (ix3 (0 : Fin 1) (0 : Fin 1) n)) := by
  obtain ⟨z, r, w, rfl⟩ : ∃ (z : Fin 1) (r : Fin 16) (w : Fin 256), y = ix3 z r w := ⟨y 0, y 1, y 2, eq_ix3 y⟩
  obtain rfl : z = 0 := Subsingleton.elim _ _
  exact stored_apply x0 x1 x2 x3 x4 x5 x6 r w

end Cert.BlockValue

end
-- ==== Proof.EntryArrays.lean ====
import proofs.«118901_j84421877170797_2_alg».proof.Proof.Gen.KernelIdeal.Frame
import proofs.«118901_j84421877170797_2_alg».proof.Proof.Vorticity
import Idealize.ShloMosaic.Lib.ValueIdx
import Idealize.ShloMosaic.Lib.Pipeline.Value
import Idealize.ShloMosaic.Lib.StableHlo.Run

/-
  The seven arrays the kernel launch reads, as the host lines before it leave them, read at an index as functions of
  the program's two arguments (sources [8, 128, 4], points [8, 256, 256, 2]):

    points channel k   — cut the last axis of the points at k and drop it: [8, 256, 256], at (b, h, w) points (b, h, w, k)
    source column k    — cut the last axis of the sources at k and drop it: [8, 128], at (b, n) sources (b, n, k);
                         laid out as a row per batch, [8, 1, 128]: at (b, 0, n) sources (b, n, k)          (y, x, tau)
    1 / sigma^2        — the one word spread over [8, 128], divided by column 3 times itself, as a row per batch
    1 / (P sigma^2)    — the same with the pi word times sigma^2 as the divisor
-/

noncomputable section

namespace Cert.EntryArrays

open Idealize.ShloMosaic Idealize.ShloMosaic.ValueIdx Idealize.ShloMosaic.TcCoe Idealize.SL.Sem
open Cert.KernelIdeal Cert.KernelIdeal.Gen Cert.Vorticity

/-! ## The three layouts, over any array -/

/-- Column k of a [8, 128, 4] array, as the [8, 128] array obtained by cutting the last axis at k and dropping it. -/
theorem column_apply {α : Type} (k : Nat) (hk : k < 4) (a : S8x128x4.Idx → α) (hs : S8x128x4.Slices ![0, 0, k] S8x128x1)
    (b : Fin 8) (n : Fin 128) :
    shapeCast S8x128 (extractStridedSlice S8x128x1 ![0, 0, k] a hs) shapeCasts_S8x128x1_S8x128 (ix2 b n)
      = a (ix3 b n (⟨k, hk⟩ : Fin 4)) := by
  rw [shapeCast_apply _ shapeCasts_S8x128x1_S8x128 (ix2 b n) (ix3 b n (0 : Fin 1))
    (by rewrite [Shape.rowMajor_val_three, Shape.rowMajor_val_two]
        show (b.val * 128 + n.val) * 1 + 0 = b.val * 128 + n.val
        omega)]
  exact extractStridedSlice_apply _ a _ (ix3 b n (0 : Fin 1)) (ix3 b n (⟨k, hk⟩ : Fin 4)) (fun d => match d with
    | ⟨0, _⟩ => by show b.val = 0 + b.val; omega
    | ⟨1, _⟩ => by show n.val = 0 + n.val; omega
    | ⟨2, _⟩ => by show k = k + 0; omega)

/-- Channel k of a [8, 256, 256, 2] array, as the [8, 256, 256] array obtained by cutting the last axis at k and dropping it. -/
theorem channel_apply {α : Type} (k : Nat) (hk : k < 2) (a : S8x256x256x2.Idx → α)
    (hs : S8x256x256x2.Slices ![0, 0, 0, k] S8x256x256x1) (b : Fin 8) (h w : Fin 256) :
    shapeCast S8x256x256 (extractStridedSlice S8x256x256x1 ![0, 0, 0, k] a hs) shapeCasts_S8x256x256x1_S8x256x256 (ix3 b h w)
      = a (ix4 b h w (⟨k, hk⟩ : Fin 2)) := by
  rw [shapeCast_apply _ shapeCasts_S8x256x256x1_S8x256x256 (ix3 b h w) (ix4 b h w (0 : Fin 1))
    (by rewrite [Shape.rowMajor_val_four, Shape.rowMajor_val_three]
        show ((b.val * 256 + h.val) * 256 + w.val) * 1 + 0 = (b.val * 256 + h.val) * 256 + w.val
        omega)]
  exact extractStridedSlice_apply _ a _ (ix4 b h w (0 : Fin 1)) (ix4 b h w (⟨k, hk⟩ : Fin 2)) (fun d => match d with
    | ⟨0, _⟩ => by show b.val = 0 + b.val; omega
    | ⟨1, _⟩ => by show h.val = 0 + h.val; omega
    | ⟨2, _⟩ => by show w.val = 0 + w.val; omega
    | ⟨3, _⟩ => by show k = k + 0; omega)

/-- A [8, 128] array laid out as one row per batch, [8, 1, 128]. -/
theorem batch_row_apply {α : Type} (v : S8x128.Idx → α) (b : Fin 8) (z : Fin 1) (n : Fin 128) :
    broadcastInDim S8x1x128 ![0, 2] bcast_S8x128_S8x1x128_0_2 v (ix3 b z n) = v (ix2 b n) :=
  broadcastInDim_apply _ bcast_S8x128_S8x1x128_0_2 v (ix3 b z n) (ix2 b n) (fun d => match d with
    | ⟨0, _⟩ => by show b.val = if (8 : Nat) = 1 then 0 else b.val; rw [if_neg (by decide)]
    | ⟨1, _⟩ => by show n.val = if (128 : Nat) = 1 then 0 else n.val; rw [if_neg (by decide)])

/-! ## The arrays at the launch -/

variable (m : (ℓ : Loc nD τ sig) → Buf (Elt Ideal) ℓ)

/-- The program's two arguments on core c. -/
abbrev srcs (c : Dev nD) : S8x128x4.Idx → EReal := m ((c : Thread nD τ).loc main_arg0)
abbrev pnts (c : Dev nD) : S8x256x256x2.Idx → EReal := m ((c : Thread nD τ).loc main_arg1)

theorem p0_entry (c : Dev nD) (b : Fin 8) (h w : Fin 256) :
    (V m c main_v21 : S8x256x256.Idx → EReal) (ix3 b h w) = pnts m c (ix4 b h w (0 : Fin 2)) := by
  have e : (V m c main_v21 : S8x256x256.Idx → EReal)
      = shapeCast S8x256x256 (extractStridedSlice S8x256x256x1 ![0, 0, 0, 0] (pnts m c) slices_S8x256x256x2_S8x256x256x1_0_0_0_0)
          shapeCasts_S8x256x256x1_S8x256x256 := by
    show StableHlo.after hostOps0 (fun b => m (c, b)) (Proc.devRef .tc main_v21) = _
    after_results
    rfl
  rw [e]
  exact channel_apply 0 (by decide) _ _ b h w

theorem p1_entry (c : Dev nD) (b : Fin 8) (h w : Fin 256) :
    (V m c main_v23 : S8x256x256.Idx → EReal) (ix3 b h w) = pnts m c (ix4 b h w (1 : Fin 2)) := by
  have e : (V m c main_v23 : S8x256x256.Idx → EReal)
      = shapeCast S8x256x256 (extractStridedSlice S8x256x256x1 ![0, 0, 0, 1] (pnts m c) slices_S8x256x256x2_S8x256x256x1_0_0_0_1)
          shapeCasts_S8x256x256x1_S8x256x256 := by
    show StableHlo.after hostOps0 (fun b => m (c, b)) (Proc.devRef .tc main_v23) = _
    after_results
    rfl
  rw [e]
  exact channel_apply 1 (by decide) _ _ b h w

theorem y_entry (c : Dev nD) (b : Fin 8) (z : Fin 1) (n : Fin 128) :
    (V m c main_v2 : S8x1x128.Idx → EReal) (ix3 b z n) = srcs m c (ix3 b n (0 : Fin 4)) := by
  have e : (V m c main_v2 : S8x1x128.Idx → EReal)
      = broadcastInDim S8x1x128 ![0, 2] bcast_S8x128_S8x1x128_0_2
          (shapeCast S8x128 (extractStridedSlice S8x128x1 ![0, 0, 0] (srcs m c) slices_S8x128x4_S8x128x1_0_0_0) shapeCasts_S8x128x1_S8x128) := by
    show StableHlo.after hostOps0 (fun b => m (c, b)) (Proc.devRef .tc main_v2) = _
    after_results
    rfl
  rw [e, batch_row_apply]
  exact column_apply 0 (by decide) _ _ b n

theorem x_entry (c : Dev nD) (b : Fin 8) (z : Fin 1) (n : Fin 128) :
    (V m c main_v5 : S8x1x128.Idx → EReal) (ix3 b z n) = srcs m c (ix3 b n (1 : Fin 4)) := by
  have e : (V m c main_v5 : S8x1x128.Idx → EReal)
      = broadcastInDim S8x1x128 ![0, 2] bcast_S8x128_S8x1x128_0_2
          (shapeCast S8x128 (extractStridedSlice S8x128x1 ![0, 0, 1] (srcs m c) slices_S8x128x4_S8x128x1_0_0_1) shapeCasts_S8x128x1_S8x128) := by
    show StableHlo.after hostOps0 (fun b => m (c, b)) (Proc.devRef .tc main_v5) = _
    after_results
    rfl
  rw [e, batch_row_apply]
  exact column_apply 1 (by decide) _ _ b n

theorem tau_entry (c : Dev nD) (b : Fin 8) (z : Fin 1) (n : Fin 128) :
    (V m c main_v8 : S8x1x128.Idx → EReal) (ix3 b z n) = srcs m c (ix3 b n (2 : Fin 4)) := by
  have e : (V m c main_v8 : S8x1x128.Idx → EReal)
      = broadcastInDim S8x1x128 ![0, 2] bcast_S8x128_S8x1x128_0_2
          (shapeCast S8x128 (extractStridedSlice S8x128x1 ![0, 0, 2] (srcs m c) slices_S8x128x4_S8x128x1_0_0_2) shapeCasts_S8x128x1_S8x128) := by
    show StableHlo.after hostOps0 (fun b => m (c, b)) (Proc.devRef .tc main_v8) = _
    after_results
    rfl
  rw [e, batch_row_apply]
  exact column_apply 2 (by decide) _ _ b n

/-- Column 3, the widths, as the [8, 128] array the two reciprocals are taken from. -/
abbrev widths (c : Dev nD) : S8x128.Idx → EReal :=
  shapeCast S8x128 (extractStridedSlice S8x128x1 ![0, 0, 3] (srcs m c) slices_S8x128x4_S8x128x1_0_0_3) shapeCasts_S8x128x1_S8x128

theorem inv_entry (c : Dev nD) (b : Fin 8) (z : Fin 1) (n : Fin 128) :
    (V m c main_v14 : S8x1x128.Idx → EReal) (ix3 b z n)
      = Ideal.div oneW (srcs m c (ix3 b n (3 : Fin 4)) * srcs m c (ix3 b n (3 : Fin 4))) := by
  have e : (V m c main_v14 : S8x1x128.Idx → EReal)
      = broadcastInDim S8x1x128 ![0, 2] bcast_S8x128_S8x1x128_0_2
          (Host.divf (F := Ideal) (broadcastInDim S8x128 ![] bcast_S_S8x128 (constant (F := Ideal) S_ .f32 0x3F800000#32))
            (mulf (widths m c) (widths m c))) := by
    show StableHlo.after hostOps0 (fun b => m (c, b)) (Proc.devRef .tc main_v14) = _
    after_results
    rfl
  rw [e, batch_row_apply]
  show Ideal.div oneW (widths m c (ix2 b n) * widths m c (ix2 b n)) = _
  rw [show widths m c (ix2 b n) = srcs m c (ix3 b n (3 : Fin 4)) from column_apply 3 (by decide) _ _ b n]

theorem sc_entry (c : Dev nD) (b : Fin 8) (z : Fin 1) (n : Fin 128) :
    (V m c main_v19 : S8x1x128.Idx → EReal) (ix3 b z n)
      = Ideal.div oneW (piW * (srcs m c (ix3 b n (3 : Fin 4)) * srcs m c (ix3 b n (3 : Fin 4)))) := by
  have e : (V m c main_v19 : S8x1x128.Idx → EReal)
      = broadcastInDim S8x1x128 ![0, 2] bcast_S8x128_S8x1x128_0_2
          (Host.divf (F := Ideal) (broadcastInDim S8x128 ![] bcast_S_S8x128 (constant (F := Ideal) S_ .f32 0x3F800000#32))
            (mulf (broadcastInDim S8x128 ![] bcast_S_S8x128 (constant (F := Ideal) S_ .f32 0x40490FDB#32))
              (mulf (widths m c) (widths m c)))) := by
    show StableHlo.after hostOps0 (fun b => m (c, b)) (Proc.devRef .tc main_v19) = _
    after_results
    rfl
  rw [e, batch_row_apply]
  show Ideal.div oneW (piW * (widths m c (ix2 b n) * widths m c (ix2 b n))) = _
  rw [show widths m c (ix2 b n) = srcs m c (ix3 b n (3 : Fin 4)) from column_apply 3 (by decide) _ _ b n]

end Cert.EntryArrays

end
-- ==== Proof.FieldArray.lean ====
import proofs.«118901_j84421877170797_2_alg».proof.Proof.Gen.KernelIdeal.Frame
import proofs.«118901_j84421877170797_2_alg».proof.Proof.BlockValue
import proofs.«118901_j84421877170797_2_alg».proof.Proof.EntryArrays
import Idealize.ShloMosaic.Lib.Pipeline.Value
import Idealize.ShloMosaic.Lib.StableHlo.Run
import Idealize.ShloMosaic.Lib.Tactic

/-
  From the blocks the grid points write to the whole result, and the run.

  The grid is 8 x 16: point t = (b, hb) reads rows 16 hb .. 16 hb + 15 of batch b of the two point arrays and row b of
  the five per-source arrays, and writes rows 16 hb .. 16 hb + 15 of batch b of the [8, 256, 256] result. So an entry
  (b, h, w) of the result depends only on the points' two coordinates at (b, h, w) and on the 128 sources of batch b:
  it is the sum of the contributions in the arrangement with reciprocals taken beforehand. The 128 blocks tile the
  result (the point that covers row h of batch b is (b, h / 16)), so the array ends holding that function everywhere;
  the one host line after the launch appends a unit axis.
-/

set_option maxRecDepth 16384

noncomputable section

namespace Cert.FieldArray

open Idealize.ShloMosaic Idealize.ShloMosaic.ValueIdx Idealize.ShloMosaic.TcCoe Idealize.SL.Sem
open Idealize.ShloMosaic.Pipeline (Dat)
open Cert.KernelIdeal Cert.KernelIdeal.Gen Cert.Vorticity Cert.BlockValue Cert.EntryArrays

variable (m : (ℓ : Loc nD τ sig) → Buf (Elt Ideal) ℓ) (ρ : Dev nD → PrngReg)

theorem hz : (![0, 0, 0] : Fin 3 → Nat) = fun _ => 0 := funext fun a => by fin_cases a <;> rfl

/-- The launch's result array as one function of the program's arguments: at (b, h, w) the sum over the sources of
    batch b of their contributions at the point (h, w). -/
def launched (c : Dev nD) : S8x256x256.Idx → EReal :=
  fun i => ∑ n : Fin 128, recipAt (srcs m c) (pnts m c) (i 0) (i 1) (i 2) n

/-- The printed index maps, decided once over the 128 grid points: the two point windows move with the result's
    window; the five source windows follow its batch coordinate and stay at row 0; the result's blocks start at
    column 0. -/
theorem index_facts : ∀ t : Fin cfg0.N,
    (win0_0.index t (0 : Fin 3) = win0_7.index t (0 : Fin 3) ∧ win0_0.index t (1 : Fin 3) = win0_7.index t (1 : Fin 3) ∧ win0_0.index t (2 : Fin 3) = win0_7.index t (2 : Fin 3))
    ∧ (win0_1.index t (0 : Fin 3) = win0_7.index t (0 : Fin 3) ∧ win0_1.index t (1 : Fin 3) = win0_7.index t (1 : Fin 3) ∧ win0_1.index t (2 : Fin 3) = win0_7.index t (2 : Fin 3))
    ∧ (win0_2.index t (0 : Fin 3) = win0_7.index t (0 : Fin 3) ∧ win0_2.index t (1 : Fin 3) = 0 ∧ win0_2.index t (2 : Fin 3) = 0)
    ∧ (win0_3.index t (0 : Fin 3) = win0_7.index t (0 : Fin 3) ∧ win0_3.index t (1 : Fin 3) = 0 ∧ win0_3.index t (2 : Fin 3) = 0)
    ∧ (win0_4.index t (0 : Fin 3) = win0_7.index t (0 : Fin 3) ∧ win0_4.index t (1 : Fin 3) = 0 ∧ win0_4.index t (2 : Fin 3) = 0)
    ∧ (win0_5.index t (0 : Fin 3) = win0_7.index t (0 : Fin 3) ∧ win0_5.index t (1 : Fin 3) = 0 ∧ win0_5.index t (2 : Fin 3) = 0)
    ∧ (win0_6.index t (0 : Fin 3) = win0_7.index t (0 : Fin 3) ∧ win0_6.index t (1 : Fin 3) = 0 ∧ win0_6.index t (2 : Fin 3) = 0)
    ∧ win0_7.index t (0 : Fin 3) ≤ 7 ∧ win0_7.index t (1 : Fin 3) ≤ 15 ∧ win0_7.index t (2 : Fin 3) = 0 :=
  (by decide +kernel : ∀ t : Fin grid0.N, _)

/-- Every (batch, row block) is some grid point's. -/
theorem index_onto : ∀ (q0 : Fin 8) (q1 : Fin 16), ∃ t : Fin cfg0.N, win0_7.index t = ![q0.val, q1.val, 0] :=
  (by decide +kernel : ∀ (q0 : Fin 8) (q1 : Fin 16), ∃ t : Fin grid0.N, win0_7.index t = ![q0.val, q1.val, 0])

/-! ## Each input block, read where the result's block says -/

/-- Point window 0's block sits where the result's block sits: its entry y is the points' coordinate 0 at the result's entry. -/
theorem p0_block (c : Dev nD) (t : Fin cfg0.N) (y : S1x16x256.Idx) (b : Fin 8) (h w : Fin 256)
    (hb : win0_7.index t (0 : Fin 3) * 1 + 1 * (y 0).val = b.val) (hh : win0_7.index t (1 : Fin 3) * 16 + 1 * (y 1).val = h.val)
    (hw : win0_7.index t (2 : Fin 3) * 256 + 1 * (y 2).val = w.val) :
    iblk m c 0 t y = pnts m c (ix4 b h w (0 : Fin 2)) := by
  obtain ⟨⟨a00, a01, a02⟩, ⟨a10, a11, a12⟩, -⟩ := index_facts t
  rw [← p0_entry m c b h w]
  show (V m c main_v21 : S8x256x256.Idx → EReal) (((cfg0.win 0).blk t).view.emb y) = (V m c main_v21 : S8x256x256.Idx → EReal) (ix3 b h w)
  refine congrArg (V m c main_v21 : S8x256x256.Idx → EReal) (funext fun a => Fin.ext ?_)
  match a with
  | ⟨0, _⟩ => show win0_0.index t (0 : Fin 3) * 1 + 1 * (y 0).val = b.val; omega
  | ⟨1, _⟩ => show win0_0.index t (1 : Fin 3) * 16 + 1 * (y 1).val = h.val; omega
  | ⟨2, _⟩ => show win0_0.index t (2 : Fin 3) * 256 + 1 * (y 2).val = w.val; omega

/-- Point window 1's block sits where the result's block sits: its entry y is the points' coordinate 1 at the result's entry. -/
theorem p1_block (c : Dev nD) (t : Fin cfg0.N) (y : S1x16x256.Idx) (b : Fin 8) (h w : Fin 256)
    (hb : win0_7.index t (0 : Fin 3) * 1 + 1 * (y 0).val = b.val) (hh : win0_7.index t (1 : Fin 3) * 16 + 1 * (y 1).val = h.val)
    (hw : win0_7.index t (2 : Fin 3) * 256 + 1 * (y 2).val = w.val) :
    iblk m c 1 t y = pnts m c (ix4 b h w (1 : Fin 2)) := by
  obtain ⟨⟨a00, a01, a02⟩, ⟨a10, a11, a12⟩, -⟩ := index_facts t
  rw [← p1_entry m c b h w]
  show (V m c main_v23 : S8x256x256.Idx → EReal) (((cfg0.win 1).blk t).view.emb y) = (V m c main_v23 : S8x256x256.Idx → EReal) (ix3 b h w)
  refine congrArg (V m c main_v23 : S8x256x256.Idx → EReal) (funext fun a => Fin.ext ?_)
  match a with
  | ⟨0, _⟩ => show win0_1.index t (0 : Fin 3) * 1 + 1 * (y 0).val = b.val; omega
  | ⟨1, _⟩ => show win0_1.index t (1 : Fin 3) * 16 + 1 * (y 1).val = h.val; omega
  | ⟨2, _⟩ => show win0_1.index t (2 : Fin 3) * 256 + 1 * (y 2).val = w.val; omega

/-- The y row of the point's batch. -/
theorem y_block (c : Dev nD) (t : Fin cfg0.N) (b : Fin 8) (n : Fin 128) (hb : win0_7.index t (0 : Fin 3) = b.val) :
    iblk m c 2 t (ix3 (0 : Fin 1) (0 : Fin 1) n) = srcs m c (ix3 b n (0 : Fin 4)) := by
  obtain ⟨-, -, ⟨a20, a21, a22⟩, ⟨a30, a31, a32⟩, ⟨a40, a41, a42⟩, ⟨a50, a51, a52⟩, ⟨a60, a61, a62⟩, -⟩ := index_facts t
  rw [← y_entry m c b (0 : Fin 1) n]
  show (V m c main_v2 : S8x1x128.Idx → EReal) (((cfg0.win 2).blk t).view.emb (ix3 (0 : Fin 1) (0 : Fin 1) n))
    = (V m c main_v2 : S8x1x128.Idx → EReal) (ix3 b (0 : Fin 1) n)
  refine congrArg (V m c main_v2 : S8x1x128.Idx → EReal) (funext fun a => Fin.ext ?_)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 128 + 1 * n.val = n.val; omega

/-- The x row of the point's batch. -/
theorem x_block (c : Dev nD) (t : Fin cfg0.N) (b : Fin 8) (n : Fin 128) (hb : win0_7.index t (0 : Fin 3) = b.val) :
    iblk m c 3 t (ix3 (0 : Fin 1) (0 : Fin 1) n) = srcs m c (ix3 b n (1 : Fin 4)) := by
  obtain ⟨-, -, ⟨a20, a21, a22⟩, ⟨a30, a31, a32⟩, ⟨a40, a41, a42⟩, ⟨a50, a51, a52⟩, ⟨a60, a61, a62⟩, -⟩ := index_facts t
  rw [← x_entry m c b (0 : Fin 1) n]
  show (V m c main_v5 : S8x1x128.Idx → EReal) (((cfg0.win 3).blk t).view.emb (ix3 (0 : Fin 1) (0 : Fin 1) n))
    = (V m c main_v5 : S8x1x128.Idx → EReal) (ix3 b (0 : Fin 1) n)
  refine congrArg (V m c main_v5 : S8x1x128.Idx → EReal) (funext fun a => Fin.ext ?_)
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 128 + 1 * n.val = n.val; omega

/-- The tau row of the point's batch. -/
theorem tau_block (c : Dev nD) (t : Fin cfg0.N) (b : Fin 8) (n : Fin 128) (hb : win0_7.index t (0 : Fin 3) = b.val) :
    iblk m c 4 t (ix3 (0 : Fin 1) (0 : Fin 1) n) = srcs m c (ix3 b n (2 : Fin 4)) := by
  obtain ⟨-, -, ⟨a20, a21, a22⟩, ⟨a30, a31, a32⟩, ⟨a40, a41, a42⟩, ⟨a50, a51, a52⟩, ⟨a60, a61, a62⟩, -⟩ := index_facts t
  rw [← tau_entry m c b (0 : Fin 1) n]
  show (V m c main_v8 : S8x1x128.Idx → EReal) (((cfg0.win 4).blk t).view.emb (ix3 (0 : Fin 1) (0 : Fin 1) n))
    = (V m c main_v8 : S8x1x128.Idx → EReal) (ix3 b (0 : Fin 1) n)
  refine congrArg (V m c main_v8 : S8x1x128.Idx → EReal) (funext fun a => Fin.ext ?_)
  match a with
  | ⟨0, _⟩ => show win0_4.index t (0 : Fin 3) * 1 + 1 * 0 = b.val; omega
  | ⟨1, _⟩ => show win0_4.index t (1 : Fin 3) * 1 + 1 * 0 = 0; omega
  | ⟨2, _⟩ => show win0_4.index t (2 : Fin 3) * 128 + 1 * n.val = n.val; omega

/-- The row of reciprocals 1 / sigma^2 of the point's batch. -/
theorem inv_block (c : Dev nD) (t : Fin cfg0.N) (b : Fin 8) (n : Fin 128) (hb : win0_7.index t (0 : Fin 3) = b.val) :
    iblk m c 5 t (ix3 (0 : Fin 1) (0 : Fin 1) n) = Ideal.div oneW (srcs m c (ix3 b n (3 : Fin 4)) * srcs m c (ix3 b n (3 : Fin 4))) := by
  obtain ⟨-, -, ⟨a20, a21, a22⟩, ⟨a30, a31, a32⟩, ⟨a40, a41, a42⟩, ⟨a50, a51, a52⟩, ⟨a60, a61, a62⟩, -⟩ := index_facts t
  rw [← inv_entry m c b (0 : Fin 1) n]
  show (V m c main_v14 : S8x1x128.Idx → EReal) (((cfg0.win 5).blk t).view.emb (ix3 (0 : Fin 1) (0 : Fin 1) n))
    = (V m c main_v14 : S8x1x128.Idx → EReal) (ix3 b (0 : Fin 1) n)
  refine congrArg (V m c main_v14 : S8x1x128.Idx → EReal) (funext fun a => Fin.ext ?_)
  match a with
  | ⟨0, _⟩ => show win0_5.index t (0 : Fin 3) * 1 + 1 * 0 = b.val; omega
  | ⟨1, _⟩ => show win0_5.index t (1 : Fin 3) * 1 + 1 * 0 = 0; omega
  | ⟨2, _⟩ => show win0_5.index t (2 : Fin 3) * 128 + 1 * n.val = n.val; omega

/-- The row of reciprocals 1 / (P sigma^2) of the point's batch. -/
theorem sc_block (c : Dev nD) (t : Fin cfg0.N) (b : Fin 8) (n : Fin 128) (hb : win0_7.index t (0 : Fin 3) = b.val) :
    iblk m c 6 t (ix3 (0 : Fin 1) (0 : Fin 1) n) = Ideal.div oneW (piW * (srcs m c (ix3 b n (3 : Fin 4)) * srcs m c (ix3 b n (3 : Fin 4)))) := by
  obtain ⟨-, -, ⟨a20, a21, a22⟩, ⟨a30, a31, a32⟩, ⟨a40, a41, a42⟩, ⟨a50, a51, a52⟩, ⟨a60, a61, a62⟩, -⟩ := index_facts t
  rw [← sc_entry m c b (0 : Fin 1) n]
  show (V m c main_v19 : S8x1x128.Idx → EReal) (((cfg0.win 6).blk t).view.emb (ix3 (0 : Fin 1) (0 : Fin 1) n))
    = (V m c main_v19 : S8x1x128.Idx → EReal) (ix3 b (0 : Fin 1) n)
  refine congrArg (V m c main_v19 : S8x1x128.Idx → EReal) (funext fun a => Fin.ext ?_)
  match a with
  | ⟨0, _⟩ => show win0_6.index t (0 : Fin 3) * 1 + 1 * 0 = b.val; omega
  | ⟨1, _⟩ => show win0_6.index t (1 : Fin 3) * 1 + 1 * 0 = 0; omega
  | ⟨2, _⟩ => show win0_6.index t (2 : Fin 3) * 128 + 1 * n.val = n.val; omega

/-! ## Blocks to the array -/

/-- WHAT POINT t WRITES BACK is block t of `launched`. -/
theorem flushed_eq (c : Dev nD) (t : Fin cfg0.N) :
    (dats m 0 c).flushed 7 t = ((cfg0.win 7).blk t).view.read (Elt Ideal) (launched m c) := by
  show (cfg0.win 7).cut (grid0.coords t) ((dats m 0 c).after 7 t) = _
  rw [after0_7]
  unfold out0_7
  rw [View.canon_unit_zero hz]
  simp only [View.ld_unit_zero (S := S1x16x256) hz, View.ld_unit_zero (S := S1x1x128) hz]
  funext y
  refine (stored_at (iblk m c 0 t) (iblk m c 1 t) (iblk m c 2 t) (iblk m c 3 t) (iblk m c 4 t) (iblk m c 5 t) (iblk m c 6 t) y).trans ?_
  rw [View.read_apply]
  obtain ⟨b, h, w, hi⟩ : ∃ (b : Fin 8) (h w : Fin 256), ((cfg0.win 7).blk t).view.emb y = ix3 b h w :=
    ⟨_, _, _, eq_ix3 _⟩
  rw [hi]
  show _ = ∑ n : Fin 128, recipAt (srcs m c) (pnts m c) b h w n
  -- the coordinates of the result's entry: block index times block extent plus the coordinate inside the block
  have hb : win0_7.index t (0 : Fin 3) * 1 + 1 * (y 0).val = b.val := congrArg Fin.val (congrFun hi 0)
  have hh : win0_7.index t (1 : Fin 3) * 16 + 1 * (y 1).val = h.val := congrArg Fin.val (congrFun hi 1)
  have hw : win0_7.index t (2 : Fin 3) * 256 + 1 * (y 2).val = w.val := congrArg Fin.val (congrFun hi 2)
  have hy0 : (y 0).val < 1 := (y 0).isLt
  have hb' : win0_7.index t (0 : Fin 3) = b.val := by omega
  refine Finset.sum_congr rfl fun n _ => ?_
  rw [p0_block m c t y b h w hb hh hw, p1_block m c t y b h w hb hh hw, y_block m c t b n hb', x_block m c t b n hb',
    tau_block m c t b n hb', inv_block m c t b n hb', sc_block m c t b n hb']
  rfl

/-- An entry of the result is in point t's block iff each coordinate is in the block's range on its axis. -/
theorem mem_block (t : Fin cfg0.N) (i : S8x256x256.Idx) :
    i ∈ ((cfg0.win 7).blk t).view.set ↔ ∀ a : Fin 3, win0_7.index t a * S1x16x256.size a ≤ (i a).val ∧ (i a).val < win0_7.index t a * S1x16x256.size a + S1x16x256.size a := by
  show i ∈ ((View.whole main_v24).slice (win0_7.rect t)).set ↔ _
  rw [View.set_slice_whole, Rect.mem_set_unit]
  exact Iff.rfl

/-- The blocks tile the result: entry (b, h, w) is in the block of the point (b, h / 16). -/
theorem covered (i : S8x256x256.Idx) : ∃ t : Fin cfg0.N, (cfg0.win 7).flush t = true ∧ i ∈ ((cfg0.win 7).blk t).view.set := by
  have h0 : (i 0).val < 8 := (i 0).isLt
  have h1 : (i 1).val < 256 := (i 1).isLt
  have h2 : (i 2).val < 256 := (i 2).isLt
  obtain ⟨t, ht⟩ := index_onto ⟨(i 0).val, h0⟩ ⟨(i 1).val / 16, by omega⟩
  have q0 : win0_7.index t (0 : Fin 3) = (i 0).val := congrFun ht 0
  have q1 : win0_7.index t (1 : Fin 3) = (i 1).val / 16 := congrFun ht 1
  have q2 : win0_7.index t (2 : Fin 3) = 0 := congrFun ht 2
  refine ⟨t, flush0_7 t, ?_⟩
  rw [mem_block]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 16 ≤ (i 1).val ∧ (i 1).val < win0_7.index t (1 : Fin 3) * 16 + 16; omega
  | ⟨2, _⟩ => show win0_7.index t (2 : Fin 3) * 256 ≤ (i 2).val ∧ (i 2).val < win0_7.index t (2 : Fin 3) * 256 + 256; omega

/-- THE ARRAY after the launch is `launched`. -/
theorem final (c : Dev nD) : (dats m 0 c).arrAt 7 cfg0.N = launched m c :=
  (dats m 0 c).arrAt_eq_of_cover 7 (launched m c) (fun t _ => flushed_eq m c t) covered

/-- The host line after the launch appends a unit axis: the program's result is the field. -/
theorem tail_eq (c : Dev nD) :
    Pipeline.afterTail₀ cfgs (dats m) 0 (V0 m) [hostOps1] c main_v25 = recipField (srcs m c) (pnts m c) := by
  unfold Pipeline.afterTail₀
  show StableHlo.after hostOps1 _ (Proc.devRef .tc main_v25) = _
  after_results
  have e : Pipeline.withArrays (cfgs 0).spec c (V0 m c) (fun w => (dats m 0 c).arrAt w (cfgs 0).N) (Proc.devRef .tc main_v24)
      = launched m c :=
    (Pipeline.withArrays_arr spec0 winFacts0.arr_inj c _ _ 7).trans (final m c)
  rw [e]
  funext j
  obtain ⟨b, h, w, z, rfl⟩ : ∃ (b : Fin 8) (h w : Fin 256) (z : Fin 1), j = ix4 b h w z :=
    ⟨j 0, j 1, j 2, j 3, eq_ix4 j⟩
  rw [broadcastInDim_apply _ bcast_S8x256x256_S8x256x256x1_0_1_2 (launched m c) (ix4 b h w z) (ix3 b h w) (fun a => match a with
    | ⟨0, _⟩ => by show b.val = if (8 : Nat) = 1 then 0 else b.val; rw [if_neg (by decide)]
    | ⟨1, _⟩ => by show h.val = if (256 : Nat) = 1 then 0 else h.val; rw [if_neg (by decide)]
    | ⟨2, _⟩ => by show w.val = if (256 : Nat) = 1 then 0 else w.val; rw [if_neg (by decide)])]
  rfl

/-- THE RUN, read: every weakly fair execution of the program ends with its result at the field of its two arguments,
    in the arrangement with reciprocals taken beforehand, and the arguments as they were. -/
theorem run : θ_run defs (onTc (τ := τ) (main (F := Ideal))) ⟨m, fun _ => 0, ρ⟩ fun r => ∀ c : Dev nD,
      r.2.mem ((c.tc : Thread nD τ).loc main_v25) = recipField (srcs m c) (pnts m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.FieldArray

end
-- ==== Proof.lean ====
/-
  The vorticity field of Gaussian vortex sources: a tiled kernel against the plain array expression.

  Both programs take sources [8, 128, 4] — per batch and source the numbers (y, x, tau, sigma) — and points
  [8, 256, 256, 2], and return, per batch and grid point, the sum over the batch's 128 sources of
      tau * exp(-((p0 - y)^2 + (p1 - x)^2) / sigma^2) / (P sigma^2),        P the single-precision pi word.
  The kernel takes the two reciprocals 1 / sigma^2 and 1 / (P sigma^2) on the host beforehand, cuts the result into
  8 x 16 blocks of 16 rows, and in each block spreads points against sources, multiplies by the reciprocals and sums
  over the sources; the reference divides in place over a five-dimensional difference array. On the extended reals:

    * each program's result is one function of the two arguments, index by index (FieldArray for the kernel, through
      the body's arithmetic at one index, BlockValue, and the arrays the host lines leave, EntryArrays; RefField for
      the reference);
    * the two functions differ only in "multiply by a reciprocal taken beforehand" against "divide in place", source
      by source, and a sum does not care how its terms were obtained (Vorticity);
    * for real entries and sigma ≠ 0 the two spellings of one source's term are the same real number (FalloffTerm);
      at sigma = 0 they are not (0 * ∞ against 0 / 0), and there the plain expression itself has no value, so the
      precondition asks, besides finite entries, that no width be zero (PreDomain reads it).

  The three frame claims are the programs' runs with the results dropped; no operation was rewritten when the kernel
  was idealized, so the idealization claim is empty.
-/
import proofs.«118901_j84421877170797_2_alg».proof.Defs
import proofs.«118901_j84421877170797_2_alg».proof.Proof.Gen.Kernel
import proofs.«118901_j84421877170797_2_alg».proof.Proof.Gen.Kernel.Skeleton
import proofs.«118901_j84421877170797_2_alg».proof.Proof.Gen.Kernel.Launch
import proofs.«118901_j84421877170797_2_alg».proof.Proof.Gen.Kernel.Points
import proofs.«118901_j84421877170797_2_alg».proof.Proof.Gen.Kernel.Frame
import proofs.«118901_j84421877170797_2_alg».proof.Proof.Gen.KernelIdeal
import proofs.«118901_j84421877170797_2_alg».proof.Proof.Gen.KernelIdeal.Skeleton
import proofs.«118901_j84421877170797_2_alg».proof.Proof.Gen.KernelIdeal.Launch
import proofs.«118901_j84421877170797_2_alg».proof.Proof.Gen.KernelIdeal.Points
import proofs.«118901_j84421877170797_2_alg».proof.Proof.Gen.KernelIdeal.Frame
import proofs.«118901_j84421877170797_2_alg».proof.Proof.Gen.ReferenceIdeal
import proofs.«118901_j84421877170797_2_alg».proof.Proof.Gen.ReferenceIdeal.Run
import proofs.«118901_j84421877170797_2_alg».proof.Proof.Gen.ReferenceIdeal.Read
import proofs.«118901_j84421877170797_2_alg».proof.Proof.Gen.Pre_finite_inputs
import proofs.«118901_j84421877170797_2_alg».proof.Proof.Vorticity
import proofs.«118901_j84421877170797_2_alg».proof.Proof.PreDomain
import proofs.«118901_j84421877170797_2_alg».proof.Proof.RefField
import proofs.«118901_j84421877170797_2_alg».proof.Proof.FieldArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- Both programs end with the field of the kernel's arguments: the kernel with reciprocals taken beforehand (its
    run), the reference dividing in place (its run, the stages read back, the arguments' agreement), and on the
    precondition's domain — real entries, no zero width — the two are one function. -/
theorem algebraic : Cert.algebraic_KernelIdeal_ReferenceIdeal := by
  intro m ρ m' ρ' hpre hagree
  refine ⟨fun c => Cert.Vorticity.recipField (Cert.EntryArrays.srcs m c) (Cert.EntryArrays.pnts m c),
    Cert.FieldArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.RefField.result_eq, (hagree c).1, (hagree c).2]
  obtain ⟨hvf, hpts, hsig⟩ := Cert.PreDomain.domain _ _ (hpre c)
  exact (Cert.Vorticity.recipField_eq_quotField _ _ hvf hpts hsig).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
